-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x4 : Shape := ⟨2, ![4194304, 4]⟩
abbrev S3x4 : Shape := ⟨2, ![3, 4]⟩
abbrev S4 : Shape := ⟨1, ![4]⟩
abbrev S4x1 : Shape := ⟨2, ![4, 1]⟩
abbrev S1 : Shape := ⟨1, ![1]⟩
abbrev S_ : Shape := ⟨0, ![]⟩

class Facts : Prop where
  bcast_S_S4194304x4 : S_.BroadcastsInDim S4194304x4 (![] : Fin 0 → Fin S4194304x4.rank)
  reducesTo_S4194304x4_S_d0_1 : S4194304x4.ReducesTo [0, 1] S_
  h_S_ : 0 < S_.numel
  bcast_S_S3x4 : S_.BroadcastsInDim S3x4 (![] : Fin 0 → Fin S3x4.rank)
  reducesTo_S3x4_S_d0_1 : S3x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S4x1 .f32) (main_arg12 : FVec F S1 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4x1 .f32 := Host.absf main_arg11
  let main_cst_20 : FVec F S_ .f32 := constant S_ .f32 0x7F800000#32
  let main_v55 : FVec F S4x1 .f32 := broadcastInDim S4x1 ![] bcast_S_S4x1 main_cst_20
  let main_v56 : IVec S4x1 1 := cmpf .olt main_v54 main_v55
  let main_c_21 : IVec S_ 1 := constantI S_ 1 1#1
  let main_v57 : IVec S_ 1 := (fun x v => Host.reduce IntOp.andi x v reducesTo_S4x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S4x1 .f32) (main_arg8 : FVec F S1 .f32) (main_arg9 : FVec F S3x4 .f32) (main_arg10 : FVec F S4 .f32) (main_arg11 : FVec F S4x1 .f32) (main_arg12 : FVec F S1 .f32) (main_v33 : IVec S_ 1) : IVec S_ 1 :=
  let main_v34 : FVec F S4x1 .f32 := Host.absf main_arg7
  let main_cst_12 : FVec F S_ .f32 := constant S_ .f32 0x7F800000#32
  let main_v35 : FVec F S4x1 .f32 := broadcastInDim S4x1 ![] bcast_S_S4x1 main_cst_12
  let main_v36 : IVec S4x1 1 := cmpf .olt main_v34 main_v35
  let main_c_13 : IVec S_ 1 := constantI S_ 1 1#1
  let main_v37 : IVec S_ 1 := (fun x v => Host.reduce IntOp.andi x v reducesTo_S4x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S3x4 .f32 := Host.absf main_arg9
  let main_cst_16 : FVec F S_ .f32 := constant S_ .f32 0x7F800000#32
  let main_v45 : FVec F S3x4 .f32 := broadcastInDim S3x4 ![] bcast_S_S3x4 main_cst_16
  let main_v46 : IVec S3x4 1 := cmpf .olt main_v44 main_v45
  let main_c_17 : IVec S_ 1 := constantI S_ 1 1#1
  let main_v47 : IVec S_ 1 := (fun x v => Host.reduce IntOp.andi x v reducesTo_S3x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_v48 main_v49 main_v50

def fn_part1 {F : FTy → Type} [FloatOps F] (main_arg4 : FVec F S1 .f32) (main_arg5 : FVec F S3x4 .f32) (main_arg6 : FVec F S4 .f32) (main_arg7 : FVec F S4x1 .f32) (main_arg8 : FVec F S1 .f32) (main_arg9 : FVec F S3x4 .f32) (main_arg10 : FVec F S4 .f32) (main_arg11 : FVec F S4x1 .f32) (main_arg12 : FVec F S1 .f32) (main_v13 : IVec S_ 1) (main_v16 : IVec S4x1 1) : IVec S_ 1 :=
  let main_c_5 : IVec S_ 1 := constantI S_ 1 1#1
  let main_v17 : IVec S_ 1 := (fun x v => Host.reduce IntOp.andi x v reducesTo_S4x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S3x4 .f32 := Host.absf main_arg5
  let main_cst_8 : FVec F S_ .f32 := constant S_ .f32 0x7F800000#32
  let main_v25 : FVec F S3x4 .f32 := broadcastInDim S3x4 ![] bcast_S_S3x4 main_cst_8
  let main_v26 : IVec S3x4 1 := cmpf .olt main_v24 main_v25
  let main_c_9 : IVec S_ 1 := constantI S_ 1 1#1
  let main_v27 : IVec S_ 1 := (fun x v => Host.reduce IntOp.andi x v reducesTo_S3x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4194304x4 .f32) (main_arg1 : FVec F S3x4 .f32) (main_arg2 : FVec F S4 .f32) (main_arg3 : FVec F S4x1 .f32) (main_arg4 : FVec F S1 .f32) (main_arg5 : FVec F S3x4 .f32) (main_arg6 : FVec F S4 .f32) (main_arg7 : FVec F S4x1 .f32) (main_arg8 : FVec F S1 .f32) (main_arg9 : FVec F S3x4 .f32) (main_arg10 : FVec F S4 .f32) (main_arg11 : FVec F S4x1 .f32) (main_arg12 : FVec F S1 .f32) : IVec S_ 1 :=
  let main_v0 : FVec F S4194304x4 .f32 := Host.absf main_arg0
  let main_cst : FVec F S_ .f32 := constant S_ .f32 0x7F800000#32
  let main_v1 : FVec F S4194304x4 .f32 := broadcastInDim S4194304x4 ![] bcast_S_S4194304x4 main_cst
  let main_v2 : IVec S4194304x4 1 := cmpf .olt main_v0 main_v1
  let main_c : IVec S_ 1 := constantI S_ 1 1#1
  let main_v3 : IVec S_ 1 := (fun x v => Host.reduce IntOp.andi x v reducesTo_S4194304x4_S_d0_1 h_S_) main_v2 main_c
  let main_v4 : FVec F S3x4 .f32 := Host.absf main_arg1
  let main_cst_0 : FVec F S_ .f32 := constant S_ .f32 0x7F800000#32
  let main_v5 : FVec F S3x4 .f32 := broadcastInDim S3x4 ![] bcast_S_S3x4 main_cst_0
  let main_v6 : IVec S3x4 1 := cmpf .olt main_v4 main_v5
  let main_c_1 : IVec S_ 1 := constantI S_ 1 1#1
  let main_v7 : IVec S_ 1 := (fun x v => Host.reduce IntOp.andi x v reducesTo_S3x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x1 .f32 := Host.absf main_arg3
  let main_cst_4 : FVec F S_ .f32 := constant S_ .f32 0x7F800000#32
  let main_v15 : FVec F S4x1 .f32 := broadcastInDim S4x1 ![] bcast_S_S4x1 main_cst_4
  let main_v16 : IVec S4x1 1 := cmpf .olt main_v14 main_v15
  fn_part1 (F := F) main_arg4 main_arg5 main_arg6 main_arg7 main_arg8 main_arg9 main_arg10 main_arg11 main_arg12 main_v13 main_v16
-- ==== Kernel.lean ====
abbrev S4194304x4 : Shape := ⟨2, ![4194304, 4]⟩
abbrev S3x4 : Shape := ⟨2, ![3, 4]⟩
abbrev S4 : Shape := ⟨1, ![4]⟩
abbrev S4x1 : Shape := ⟨2, ![4, 1]⟩
abbrev S1 : Shape := ⟨1, ![1]⟩
abbrev S1x4 : Shape := ⟨2, ![1, 4]⟩
abbrev S1x1 : Shape := ⟨2, ![1, 1]⟩
abbrev S4194304x1 : Shape := ⟨2, ![4194304, 1]⟩
abbrev S4096x4 : Shape := ⟨2, ![4096, 4]⟩
abbrev S4096x1 : Shape := ⟨2, ![4096, 1]⟩
abbrev S4096x3 : Shape := ⟨2, ![4096, 3]⟩

abbrev nBuf : Space → Nat
  | .hbm => 20
  | .vmem => 16
  | .smem => 0
  | _ => 0

abbrev bufTy : (tb : Table) → Fin (tcTables nBuf tb) → BufTy
  | .hbm, ⟨0, _⟩ => ⟨S4194304x4, .f32⟩
  | .hbm, ⟨1, _⟩ => ⟨S3x4, .f32⟩
  | .hbm, ⟨2, _⟩ => ⟨S4, .f32⟩
  | .hbm, ⟨3, _⟩ => ⟨S4x1, .f32⟩
  | .hbm, ⟨4, _⟩ => ⟨S1, .f32⟩
  | .hbm, ⟨5, _⟩ => ⟨S3x4, .f32⟩
  | .hbm, ⟨6, _⟩ => ⟨S4, .f32⟩
  | .hbm, ⟨7, _⟩ => ⟨S4x1, .f32⟩
  | .hbm, ⟨8, _⟩ => ⟨S1, .f32⟩
  | .hbm, ⟨9, _⟩ => ⟨S3x4, .f32⟩
  | .hbm, ⟨10, _⟩ => ⟨S4, .f32⟩
  | .hbm, ⟨11, _⟩ => ⟨S4x1, .f32⟩
  | .hbm, ⟨12, _⟩ => ⟨S1, .f32⟩
  | .hbm, ⟨13, _⟩ => ⟨S1x4, .f32⟩
  | .hbm, ⟨14, _⟩ => ⟨S1x4, .f32⟩
  | .hbm, ⟨15, _⟩ => ⟨S1x4, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S4194304x1, .f32⟩
  | .local _ .vmem, ⟨0, _⟩ => ⟨S4096x4, .f32⟩
  | .local _ .vmem, ⟨1, _⟩ => ⟨S4096x4, .f32⟩
  | .local _ .vmem, ⟨2, _⟩ => ⟨S3x4, .f32⟩
  | .local _ .vmem, ⟨3, _⟩ => ⟨S1x4, .f32⟩
  | .local _ .vmem, ⟨4, _⟩ => ⟨S4x1, .f32⟩
  | .local _ .vmem, ⟨5, _⟩ => ⟨S1x1, .f32⟩
  | .local _ .vmem, ⟨6, _⟩ => ⟨S3x4, .f32⟩
  | .local _ .vmem, ⟨7, _⟩ => ⟨S1x4, .f32⟩
  | .local _ .vmem, ⟨8, _⟩ => ⟨S4x1, .f32⟩
  | .local _ .vmem, ⟨9, _⟩ => ⟨S1x1, .f32⟩
  | .local _ .vmem, ⟨10, _⟩ => ⟨S3x4, .f32⟩
  | .local _ .vmem, ⟨11, _⟩ => ⟨S1x4, .f32⟩
  | .local _ .vmem, ⟨12, _⟩ => ⟨S4x1, .f32⟩
  | .local _ .vmem, ⟨13, _⟩ => ⟨S1x1, .f32⟩
  | .local _ .vmem, ⟨14, _⟩ => ⟨S4096x1, .f32⟩
  | .local _ .vmem, ⟨15, _⟩ => ⟨S4096x1, .f32⟩
  | _, _ => ⟨S4194304x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S4_S1x4 : S4.ShapeCasts S1x4
  shapeCasts_S1_S1x1 : S1.ShapeCasts S1x1
  inb_S4096x4_S4096x4_0_0 : ∀ a, (![0, 0] : Fin 2 → Nat) a + S4096x4.size a ≤ S4096x4.size a
  h_S4096x4 : 0 < S4096x4.numel
  slices_S4096x4_o0_0_S4096x3 : S4096x4.Slices ![0, 0] S4096x3
  slices_S4096x4_o0_1_S4096x1 : S4096x4.Slices ![0, 1] S4096x1
  inb_S3x4_S3x4_0_0 : ∀ a, (![0, 0] : Fin 2 → Nat) a + S3x4.size a ≤ S3x4.size a
  h_S3x4 : 0 < S3x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S4x1_S4x1_0_0 : ∀ a, (![0, 0] : Fin 2 → Nat) a + S4x1.size a ≤ S4x1.size a
  h_S4x1 : 0 < S4x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x4_S4096x4 : S1x4.Broadcasts S4096x4
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x3_S3x4_S4096x4_1_0_0_1_n_n_wf : DotDims.WF S4096x3 S3x4 S4096x4 [1] [0] [0] [1] [] []
  dot_S4096x4_S4x1_S4096x1_1_0_0_1_n_n_wf : DotDims.WF S4096x4 S4x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S4194304x4.size a
  hwx0_0 : ∀ i : grid0.Coords, EltTy.bits .f32 = 32 ∨ (Rect.block (s := S4194304x4) S4096x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x4.size a ≤ S3x4.size a
  hwx0_1 : ∀ i : grid0.Coords, EltTy.bits .f32 = 32 ∨ (Rect.block (s := S3x4) S3x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1.size a ≤ S4x1.size a
  hwx0_3 : ∀ i : grid0.Coords, EltTy.bits .f32 = 32 ∨ (Rect.block (s := S4x1) S4x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x4.size a ≤ S3x4.size a
  hwx0_5 : ∀ i : grid0.Coords, EltTy.bits .f32 = 32 ∨ (Rect.block (s := S3x4) S3x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1.size a ≤ S4x1.size a
  hwx0_7 : ∀ i : grid0.Coords, EltTy.bits .f32 = 32 ∨ (Rect.block (s := S4x1) S4x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x4.size a ≤ S3x4.size a
  hwx0_9 : ∀ i : grid0.Coords, EltTy.bits .f32 = 32 ∨ (Rect.block (s := S3x4) S3x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4.size a ≤ S1x4.size a
  hwx0_10 : ∀ i : grid0.Coords, EltTy.bits .f32 = 32 ∨ (Rect.block (s := S1x4) S1x4.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x1.size a ≤ S4x1.size a
  hwx0_11 : ∀ i : grid0.Coords, EltTy.bits .f32 = 32 ∨ (Rect.block (s := S4x1) S4x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x1.size a ≤ S4194304x1.size a
  hwx0_13 : ∀ i : grid0.Coords, EltTy.bits .f32 = 32 ∨ (Rect.block (s := S4194304x1) S4096x1.size (cc0_transform_13 i) (hinb0_13 i)).WholeWords (EltTy.packing .f32)

variable [Facts₀]

def dot_S4096x3_S3x4_S4096x4_1_0_0_1_n_n : DotDims S4096x3 S3x4 S4096x4 where
  lhsContracting := [1]
  rhsContracting := [0]
  lhsNonContracting := [0]
  rhsNonContracting := [1]
  lhsBatch := []
  rhsBatch := []
  wf := dot_S4096x3_S3x4_S4096x4_1_0_0_1_n_n_wf
def dot_S4096x4_S4x1_S4096x1_1_0_0_1_n_n : DotDims S4096x4 S4x1 S4096x1 where
  lhsContracting := [1]
  rhsContracting := [0]
  lhsNonContracting := [0]
  rhsNonContracting := [1]
  lhsBatch := []
  rhsBatch := []
  wf := dot_S4096x4_S4x1_S4096x1_1_0_0_1_n_n_wf

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S3x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S4096x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4194304x4 : Shape := ⟨2, ![4194304, 4]⟩
abbrev S3x4 : Shape := ⟨2, ![3, 4]⟩
abbrev S4 : Shape := ⟨1, ![4]⟩
abbrev S4x1 : Shape := ⟨2, ![4, 1]⟩
abbrev S1 : Shape := ⟨1, ![1]⟩
abbrev S4194304x3 : Shape := ⟨2, ![4194304, 3]⟩
abbrev S4194304x1 : Shape := ⟨2, ![4194304, 1]⟩
abbrev S1x4 : Shape := ⟨2, ![1, 4]⟩
abbrev S_ : Shape := ⟨0, ![]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S4194304x4, .f32⟩
  | .hbm, ⟨1, _⟩ => ⟨S3x4, .f32⟩
  | .hbm, ⟨2, _⟩ => ⟨S4, .f32⟩
  | .hbm, ⟨3, _⟩ => ⟨S4x1, .f32⟩
  | .hbm, ⟨4, _⟩ => ⟨S1, .f32⟩
  | .hbm, ⟨5, _⟩ => ⟨S3x4, .f32⟩
  | .hbm, ⟨6, _⟩ => ⟨S4, .f32⟩
  | .hbm, ⟨7, _⟩ => ⟨S4x1, .f32⟩
  | .hbm, ⟨8, _⟩ => ⟨S1, .f32⟩
  | .hbm, ⟨9, _⟩ => ⟨S3x4, .f32⟩
  | .hbm, ⟨10, _⟩ => ⟨S4, .f32⟩
  | .hbm, ⟨11, _⟩ => ⟨S4x1, .f32⟩
  | .hbm, ⟨12, _⟩ => ⟨S1, .f32⟩
  | .hbm, ⟨13, _⟩ => ⟨S4194304x3, .f32⟩
  | .hbm, ⟨14, _⟩ => ⟨S4194304x1, .f32⟩
  | .hbm, ⟨15, _⟩ => ⟨S4194304x4, .f32⟩
  | .hbm, ⟨16, _⟩ => ⟨S1x4, .f32⟩
  | .hbm, ⟨17, _⟩ => ⟨S4194304x4, .f32⟩
  | .hbm, ⟨18, _⟩ => ⟨S4194304x4, .f32⟩
  | .hbm, ⟨19, _⟩ => ⟨S_, .f32⟩
  | .hbm, ⟨20, _⟩ => ⟨S4194304x4, .f32⟩
  | .hbm, ⟨21, _⟩ => ⟨S4194304x4, .f32⟩
  | .hbm, ⟨22, _⟩ => ⟨S4194304x1, .f32⟩
  | .hbm, ⟨23, _⟩ => ⟨S1x1, .f32⟩
  | .hbm, ⟨24, _⟩ => ⟨S4194304x1, .f32⟩
  | .hbm, ⟨25, _⟩ => ⟨S4194304x1, .f32⟩
  | .hbm, ⟨26, _⟩ => ⟨S4194304x1, .f32⟩
  | .hbm, ⟨27, _⟩ => ⟨S4194304x1, .f32⟩
  | .hbm, ⟨28, _⟩ => ⟨S_, .f32⟩
  | .hbm, ⟨29, _⟩ => ⟨S4194304x1, .f32⟩
  | .hbm, ⟨30, _⟩ => ⟨S4194304x1, .f32⟩
  | .hbm, ⟨31, _⟩ => ⟨S_, .f32⟩
  | .hbm, ⟨32, _⟩ => ⟨S4194304x1, .f32⟩
  | .hbm, ⟨33, _⟩ => ⟨S4194304x1, .f32⟩
  | .hbm, ⟨34, _⟩ => ⟨S4194304x4, .f32⟩
  | .hbm, ⟨35, _⟩ => ⟨S1x4, .f32⟩
  | .hbm, ⟨36, _⟩ => ⟨S4194304x4, .f32⟩
  | .hbm, ⟨37, _⟩ => ⟨S4194304x4, .f32⟩
  | .hbm, ⟨38, _⟩ => ⟨S_, .f32⟩
  | .hbm, ⟨39, _⟩ => ⟨S4194304x4, .f32⟩
  | .hbm, ⟨40, _⟩ => ⟨S4194304x4, .f32⟩
  | .hbm, ⟨41, _⟩ => ⟨S4194304x1, .f32⟩
  | .hbm, ⟨42, _⟩ => ⟨S1x1, .f32⟩
  | .hbm, ⟨43, _⟩ => ⟨S4194304x1, .f32⟩
  | .hbm, ⟨44, _⟩ => ⟨S4194304x1, .f32⟩
  | .hbm, ⟨45, _⟩ => ⟨S4194304x1, .f32⟩
  | .hbm, ⟨46, _⟩ => ⟨S4194304x1, .f32⟩
  | .hbm, ⟨47, _⟩ => ⟨S_, .f32⟩
  | .hbm, ⟨48, _⟩ => ⟨S4194304x1, .f32⟩
  | .hbm, ⟨49, _⟩ => ⟨S4194304x1, .f32⟩
  | .hbm, ⟨50, _⟩ => ⟨S_, .f32⟩
  | .hbm, ⟨51, _⟩ => ⟨S4194304x1, .f32⟩
  | .hbm, ⟨52, _⟩ => ⟨S4194304x1, .f32⟩
  | .hbm, ⟨53, _⟩ => ⟨S4194304x4, .f32⟩
  | .hbm, ⟨54, _⟩ => ⟨S1x4, .f32⟩
  | .hbm, ⟨55, _⟩ => ⟨S4194304x4, .f32⟩
  | .hbm, ⟨56, _⟩ => ⟨S4194304x4, .f32⟩
  | .hbm, ⟨57, _⟩ => ⟨S_, .f32⟩
  | .hbm, ⟨58, _⟩ => ⟨S4194304x4, .f32⟩
  | .hbm, ⟨59, _⟩ => ⟨S4194304x4, .f32⟩
  | .hbm, ⟨60, _⟩ => ⟨S4194304x1, .f32⟩
  | .hbm, ⟨61, _⟩ => ⟨S1x1, .f32⟩
  | .hbm, ⟨62, _⟩ => ⟨S4194304x1, .f32⟩
  | .hbm, ⟨63, _⟩ => ⟨S4194304x1, .f32⟩
  | .hbm, ⟨64, _⟩ => ⟨S4194304x1, .f32⟩
  | .hbm, ⟨65, _⟩ => ⟨S4194304x1, .f32⟩
  | .hbm, ⟨66, _⟩ => ⟨S_, .f32⟩
  | .hbm, ⟨67, _⟩ => ⟨S4194304x1, .f32⟩
  | .hbm, ⟨68, _⟩ => ⟨S4194304x1, .f32⟩
  | .hbm, ⟨69, _⟩ => ⟨S_, .f32⟩
  | .hbm, ⟨70, _⟩ => ⟨S4194304x1, .f32⟩
  | .hbm, ⟨71, _⟩ => ⟨S4194304x1, .f32⟩
  | .hbm, ⟨72, _⟩ => ⟨S_, .f32⟩
  | .hbm, ⟨73, _⟩ => ⟨S4194304x1, .f32⟩
  | .hbm, ⟨74, _⟩ => ⟨S_, .f32⟩
  | .hbm, ⟨75, _⟩ => ⟨S4194304x1, .f32⟩
  | .hbm, ⟨76, _⟩ => ⟨S4194304x1, .i1⟩
  | .hbm, ⟨77, _⟩ => ⟨S_, .f32⟩
  | .hbm, ⟨78, _⟩ => ⟨S4194304x1, .f32⟩
  | .hbm, ⟨79, _⟩ => ⟨S4194304x1, .i1⟩
  | .hbm, ⟨80, _⟩ => ⟨S_, .f32⟩
  | .hbm, ⟨81, _⟩ => ⟨S4194304x1, .f32⟩
  | .hbm, ⟨82, _⟩ => ⟨S4194304x1, .i1⟩
  | .hbm, ⟨83, _⟩ => ⟨S4194304x1, .f32⟩
  | .hbm, ⟨84, _⟩ => ⟨S4194304x1, .f32⟩
  | .hbm, ⟨85, _⟩ => ⟨S4194304x1, .f32⟩
  | _, _ => ⟨S4194304x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_cst : Ref sig .tc := ⟨.hbm, 38, rfl⟩
abbrev main_call1_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call2_cst : Ref sig .tc := ⟨.hbm, 57, rfl⟩
abbrev main_call2_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]

class Facts₀ : Prop where
  slices_S4194304x4_S4194304x3_0_0 : S4194304x4.Slices ![0, 0] S4194304x3
  slices_S4194304x4_S4194304x1_0_1 : S4194304x4.Slices ![0, 1] S4194304x1
  bcast_S4_S1x4_1 : S4.BroadcastsInDim S1x4 (![1] : Fin 1 → Fin S1x4.rank)
  bcast_S1x4_S4194304x4_0_1 : S1x4.BroadcastsInDim S4194304x4 (![0, 1] : Fin 2 → Fin S4194304x4.rank)
  bcast_S_S4194304x4 : S_.BroadcastsInDim S4194304x4 (![] : Fin 0 → Fin S4194304x4.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  bcast_S_S4194304x1 : S_.BroadcastsInDim S4194304x1 (![] : Fin 0 → Fin S4194304x1.rank)
  dot_S4194304x3_S3x4_S4194304x4_1_0_0_1_n_n_wf : DotDims.WF S4194304x3 S3x4 S4194304x4 [1] [0] [0] [1] [] []
  dot_S4194304x4_S4x1_S4194304x1_1_0_0_1_n_n_wf : DotDims.WF S4194304x4 S4x1 S4194304x1 [1] [0] [0] [1] [] []

variable [Facts₀]

def dot_S4194304x3_S3x4_S4194304x4_1_0_0_1_n_n : DotDims S4194304x3 S3x4 S4194304x4 where
  lhsContracting := [1]
  rhsContracting := [0]
  lhsNonContracting := [0]
  rhsNonContracting := [1]
  lhsBatch := []
  rhsBatch := []
  wf := dot_S4194304x3_S3x4_S4194304x4_1_0_0_1_n_n_wf
def dot_S4194304x4_S4x1_S4194304x1_1_0_0_1_n_n : DotDims S4194304x4 S4x1 S4194304x1 where
  lhsContracting := [1]
  rhsContracting := [0]
  lhsNonContracting := [0]
  rhsNonContracting := [1]
  lhsBatch := []
  rhsBatch := []
  wf := dot_S4194304x4_S4x1_S4194304x1_1_0_0_1_n_n_wf

class Facts : Prop extends Facts₀ where

variable [Facts]
-- ==== Proof.KernelIndex.lean ====
/-
  Where each window's block sits at each of the 1024 grid points.

  The grid has one axis, over the blocks of 4096 rows. The input and the output move with it: at point `t` their block
  is the `t`-th along the rows, the only one along the columns. Each of the twelve parameter arrays is one block, the
  same at every point. These are finite facts about the printed index maps, decided once over the grid.
-/
import proofs.«167903_j72902774882571_2_alg».proof.Proof.Gen.KernelIdeal
import Idealize.ShloMosaic.Lib.Decide

namespace Cert.KernelIdeal.BlockIndex

open Cert.KernelIdeal Idealize.ShloMosaic

/-- The input window's block index at point `t` is `(t, 0)`: the grid walks the rows block by block. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Every parameter window (the twelve between the input and the output) stays on its one block, index zero on
    every axis: the block is the whole array. -/
theorem idx_param : ∀ (w : Fin 14) (t : Fin cfg0.N), 0 < w.val → w.val < 13 → ∀ a, (cfg0.win w).index t a = 0 :=
  (by decide +kernel : ∀ (w : Fin 14) (t : Fin grid0.N), 0 < w.val → w.val < 13 → ∀ a, (win0 w).index t a = 0)

/-- The output window's block index at point `t` is `(t, 0)`. -/
theorem idx_out : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

end Cert.KernelIdeal.BlockIndex
-- ==== Proof.LibDotSingle.lean ====
/-
  A matrix product with ONE contracted axis, accumulated into the zero splat and read at the ideal values, as a sum over
  the contracted axis's coordinates `k : Fin n`: the product's own contraction index is a one-coordinate multi-index, and the
  sum is re-indexed through the bijection between such multi-indices and `Fin n`. The caller names what each operand reads
  at contraction coordinate `k` (`L k`, `R k`); at literal dimension numbers the operand indices' coordinates are
  `rfl` on a kept axis and `DotDims.lhsIdx_val_of_single` / `rhsIdx_val_of_single` with `contrEquiv1_symm_val` on the contracted one.
-/
import Idealize.ShloMosaic.PureOps.Ideal
import Idealize.ShloMosaic.PureOps.Ideal.Laws
import Idealize.ShloMosaic.Lib.ValueIdx

noncomputable section

open scoped BigOperators

namespace Cert.LibDotSingle

open Idealize.ShloMosaic Idealize.ShloMosaic.ValueIdx

/-- The product at result index `j` is `∑ k : Fin n, L k * R k` once each operand, at the operand index of `j` and of the
    contraction multi-index with coordinate `k`, is known to read `L k`, respectively `R k`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (L R : Fin n → EReal)
    (hl : ∀ k : Fin n, lhs (d.lhsIdx j ((contrEquiv1 d n hr hs).symm k)) = L k)
    (hR : ∀ k : Fin n, rhs (d.rhsIdx j ((contrEquiv1 d n hr hs).symm k)) = R k) :
    FloatOps.matmul d prec lhs rhs (constant so .f32 0x00000000#32) j = ∑ k : Fin n, L k * R k := by
  rw [Ideal.matmul_constant_zero_apply, ← Equiv.sum_comp (contrEquiv1 d n hr hs).symm]
  exact Finset.sum_congr rfl fun k _ => by rw [hl k, hR k]

end Cert.LibDotSingle

end
-- ==== Proof.NetSpec.lean ====
/-
  Three small networks and a selector, as a function of ONE row.

  A row `x = (x₀, x₁, x₂, x₃)` of the input feeds its first three entries to each of three networks of the same
  form — a linear map into four hidden units, the positive part, a linear map to one unit, the logistic function —
  and its second entry `x₁` chooses among the three outputs: the first where `x₁ = 0`, the second where `x₁ = 1`,
  the third where `x₁ = 2`, and zero otherwise. Every sum is a finite sum over the extended reals in the hidden
  index or the input index; the comparisons and the positive part are those of the linear order.

  The one law used between the two arrangements of this function is that the logistic function IS the quotient
  `1 / (1 + e^(-y))` on every extended real (at `-∞` both are `0`, at `+∞` both are `1`), with the literal `1` of the
  quotient read as the real number one.
-/
import Idealize.ShloMosaic.PureOps.Ideal
import Idealize.ShloMosaic.PureOps.Ideal.Laws
import Idealize.ShloMosaic.Lib.ValueIdx

noncomputable section

open scoped BigOperators

namespace Cert.NetSpec

open Idealize.ShloMosaic Idealize.ShloMosaic.ValueIdx

/-- One network's parameters: the first layer's weights `[3, 4]` and its four biases, the second layer's
    weights `[4, 1]` and its one bias. -/
structure Net where
  W1 : (⟨2, ![3, 4]⟩ : Shape).Idx → EReal
  b1 : Fin 4 → EReal
  W2 : (⟨2, ![4, 1]⟩ : Shape).Idx → EReal
  b2 : EReal

/-- The zero the positive part is taken against, and the value of a row no selector matches. -/
abbrev zeroLit : EReal := Ideal.ofBits .f32 0x00000000#32

/-- Hidden unit `j`: the positive part of `∑ₖ xₖ · W1[k, j] + b1[j]`, over the row's first three entries. -/
def hidden (x : Fin 4 → EReal) (N : Net) (j : Fin 4) : EReal :=
  max ((∑ k : Fin 3, x (Fin.castLE (by decide) k) * N.W1 (ix2 k j)) + N.b1 j) zeroLit

/-- The argument of the logistic function: `∑ⱼ hiddenⱼ · W2[j, 0] + b2`. -/
def preAct (x : Fin 4 → EReal) (N : Net) : EReal :=
  (∑ j : Fin 4, hidden x N j * N.W2 (ix2 j (0 : Fin 1))) + N.b2

/-- One network's output on a row. -/
def net (x : Fin 4 → EReal) (N : Net) : EReal := Ideal.logistic (preAct x N)

/-- The choice among three values by the selector entry: `s` at `0`, `u` at `1`, `d` at `2`, zero otherwise. -/
def pick (sel s u d : EReal) : EReal :=
  Scalar.select (Ideal.cmp .oeq sel (Ideal.ofBits .f32 0x00000000#32)) s
    (Scalar.select (Ideal.cmp .oeq sel (Ideal.ofBits .f32 0x3F800000#32)) u
      (Scalar.select (Ideal.cmp .oeq sel (Ideal.ofBits .f32 0x40000000#32)) d zeroLit))

/-- The result on a row: the three networks' outputs, chosen by the row's second entry. -/
def rowOut (x : Fin 4 → EReal) (s u d : Net) : EReal :=
  pick (x 1) (net x s) (net x u) (net x d)

/-- The whole result `[4194304, 1]`: entry `(r, 0)` is `rowOut` of row `r` of the input `[4194304, 4]`. -/
def result (X : (⟨2, ![4194304, 4]⟩ : Shape).Idx → EReal) (s u d : Net) :
    (⟨2, ![4194304, 1]⟩ : Shape).Idx → EReal :=
  fun i => rowOut (fun k => X (ix2 (⟨(i 0).val, (i 0).isLt⟩ : Fin 4194304) k)) s u d

/-- The whole result as a function of the thirteen argument arrays as the programs receive them: the input, and
    per network its `[3, 4]` weights, its four biases as a vector, its `[4, 1]` weights, its one bias as a vector. -/
def resultOf (x0 : (⟨2, ![4194304, 4]⟩ : Shape).Idx → EReal)
    (x1 : (⟨2, ![3, 4]⟩ : Shape).Idx → EReal) (x2 : (⟨1, ![4]⟩ : Shape).Idx → EReal)
    (x3 : (⟨2, ![4, 1]⟩ : Shape).Idx → EReal) (x4 : (⟨1, ![1]⟩ : Shape).Idx → EReal)
    (x5 : (⟨2, ![3, 4]⟩ : Shape).Idx → EReal) (x6 : (⟨1, ![4]⟩ : Shape).Idx → EReal)
    (x7 : (⟨2, ![4, 1]⟩ : Shape).Idx → EReal) (x8 : (⟨1, ![1]⟩ : Shape).Idx → EReal)
    (x9 : (⟨2, ![3, 4]⟩ : Shape).Idx → EReal) (x10 : (⟨1, ![4]⟩ : Shape).Idx → EReal)
    (x11 : (⟨2, ![4, 1]⟩ : Shape).Idx → EReal) (x12 : (⟨1, ![1]⟩ : Shape).Idx → EReal) :
    (⟨2, ![4194304, 1]⟩ : Shape).Idx → EReal :=
  result x0 ⟨x1, fun j => x2 (ix1 j), x3, x4 (ix1 (0 : Fin 1))⟩ ⟨x5, fun j => x6 (ix1 j), x7, x8 (ix1 (0 : Fin 1))⟩
    ⟨x9, fun j => x10 (ix1 j), x11, x12 (ix1 (0 : Fin 1))⟩

/-- The pattern of the literal one denotes the real number one. -/
theorem ofBits_one_f32 : Ideal.ofBits .f32 0x3F800000#32 = (1 : EReal) := by
  simp [Ideal.ofBits, Ideal.ieee, -EReal.coe_mul]; norm_num

/-- The quotient form of the logistic function, spelt in the host's operations with the literal one, is the logistic
    function on every extended real. -/
theorem host_quotient_eq_logistic (y : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) y)))
      = Ideal.logistic y := by
  rw [ofBits_one_f32]; rfl

end Cert.NetSpec

end
-- ==== Proof.KernelRow.lean ====
/-
  The kernel body's stored value, read one row at a time.

  The body loads a block of 4096 rows of the input and the parameters of three networks, and stores one column of 4096
  results. Each network is two small matrix products — the block's first three columns with the `[3, 4]` weights, then
  the positive part of that plus the biases with the `[4, 1]` weights — each accumulated into zeros and so, over the
  extended reals, a plain finite sum over the contracted index; the biases arrive as one-row arrays broadcast down the
  rows; the logistic function is applied entry by entry. Entry `(p, 0)` of the stored column therefore depends on row
  `p` of the block alone and is `NetSpec.rowOut` of that row.
-/
import proofs.«167903_j72902774882571_2_alg».proof.Proof.Gen.KernelIdeal.Skeleton
import proofs.«167903_j72902774882571_2_alg».proof.Proof.LibDotSingle
import proofs.«167903_j72902774882571_2_alg».proof.Proof.NetSpec
import Idealize.ShloMosaic.Lib.ValueIdx
import Idealize.ShloMosaic.Lib.ValueLayout
import Idealize.ShloMosaic.Lib.Pipeline.Value

noncomputable section

open scoped BigOperators

namespace Cert.KernelIdeal.RowValue

open Cert.KernelIdeal Cert.KernelIdeal.Gen Idealize.ShloMosaic Idealize.ShloMosaic.ValueIdx Cert.NetSpec

/-! ## The two matrix products at an entry -/

/-- The block's three columns times the `[3, 4]` weights, at `(p, j)`: the sum over the three inputs. -/
theorem layer1_apply (x : FVec Ideal S4096x3 .f32) (w : FVec Ideal S3x4 .f32) (p : Fin 4096) (j : Fin 4) :
    matmul dot_S4096x3_S3x4_S4096x4_1_0_0_1_n_n none x w (constant (F := Ideal) S4096x4 .f32 0x00000000#32) (ix2 p j)
      = ∑ k : Fin 3, x (ix2 p k) * w (ix2 k j) := by
  refine Cert.LibDotSingle.matmul_zero_single dot_S4096x3_S3x4_S4096x4_1_0_0_1_n_n none 3 rfl rfl x w (ix2 p j)
    (fun k => x (ix2 p k)) (fun k => w (ix2 k j)) (fun k => ?_) (fun k => ?_)
  · have hk := contrEquiv1_symm_val dot_S4096x3_S3x4_S4096x4_1_0_0_1_n_n 3 rfl rfl k
    refine congrArg x (funext fun a => Fin.ext ?_)
    match a with
    | ⟨0, _⟩ =>
      show (dot_S4096x3_S3x4_S4096x4_1_0_0_1_n_n.lhsIdx (ix2 p j) ((contrEquiv1 dot_S4096x3_S3x4_S4096x4_1_0_0_1_n_n 3 rfl rfl).symm k) 0).val = p.val
      unfold DotDims.lhsIdx
      rw [dif_neg (show ¬(0 : Fin S4096x3.rank) ∈ dot_S4096x3_S3x4_S4096x4_1_0_0_1_n_n.lhsBatch by decide),
        dif_pos (show (0 : Fin S4096x3.rank) ∈ dot_S4096x3_S3x4_S4096x4_1_0_0_1_n_n.lhsNonContracting by decide)]
      rfl
    | ⟨1, _⟩ => exact (dot_S4096x3_S3x4_S4096x4_1_0_0_1_n_n.lhsIdx_val_of_single rfl (ix2 p j) _).trans hk
  · have hk := contrEquiv1_symm_val dot_S4096x3_S3x4_S4096x4_1_0_0_1_n_n 3 rfl rfl k
    refine congrArg w (funext fun a => Fin.ext ?_)
    match a with
    | ⟨0, _⟩ => exact (dot_S4096x3_S3x4_S4096x4_1_0_0_1_n_n.rhsIdx_val_of_single rfl (ix2 p j) _).trans hk
    | ⟨1, _⟩ =>
      show (dot_S4096x3_S3x4_S4096x4_1_0_0_1_n_n.rhsIdx (ix2 p j) ((contrEquiv1 dot_S4096x3_S3x4_S4096x4_1_0_0_1_n_n 3 rfl rfl).symm k) 1).val = j.val
      unfold DotDims.rhsIdx
      rw [dif_neg (show ¬(1 : Fin S3x4.rank) ∈ dot_S4096x3_S3x4_S4096x4_1_0_0_1_n_n.rhsBatch by decide),
        dif_pos (show (1 : Fin S3x4.rank) ∈ dot_S4096x3_S3x4_S4096x4_1_0_0_1_n_n.rhsNonContracting by decide)]
      rfl

/-- The four hidden columns times the `[4, 1]` weights, at `(p, 0)`: the sum over the four hidden units. -/
theorem layer2_apply (h : FVec Ideal S4096x4 .f32) (w : FVec Ideal S4x1 .f32) (p : Fin 4096) :
    matmul dot_S4096x4_S4x1_S4096x1_1_0_0_1_n_n none h w (constant (F := Ideal) S4096x1 .f32 0x00000000#32) (ix2 p (0 : Fin 1))
      = ∑ j : Fin 4, h (ix2 p j) * w (ix2 j (0 : Fin 1)) := by
  refine Cert.LibDotSingle.matmul_zero_single dot_S4096x4_S4x1_S4096x1_1_0_0_1_n_n none 4 rfl rfl h w (ix2 p (0 : Fin 1))
    (fun j => h (ix2 p j)) (fun j => w (ix2 j (0 : Fin 1))) (fun k => ?_) (fun k => ?_)
  · have hk := contrEquiv1_symm_val dot_S4096x4_S4x1_S4096x1_1_0_0_1_n_n 4 rfl rfl k
    refine congrArg h (funext fun a => Fin.ext ?_)
    match a with
    | ⟨0, _⟩ =>
      show (dot_S4096x4_S4x1_S4096x1_1_0_0_1_n_n.lhsIdx (ix2 p (0 : Fin 1)) ((contrEquiv1 dot_S4096x4_S4x1_S4096x1_1_0_0_1_n_n 4 rfl rfl).symm k) 0).val = p.val
      unfold DotDims.lhsIdx
      rw [dif_neg (show ¬(0 : Fin S4096x4.rank) ∈ dot_S4096x4_S4x1_S4096x1_1_0_0_1_n_n.lhsBatch by decide),
        dif_pos (show (0 : Fin S4096x4.rank) ∈ dot_S4096x4_S4x1_S4096x1_1_0_0_1_n_n.lhsNonContracting by decide)]
      rfl
    | ⟨1, _⟩ => exact (dot_S4096x4_S4x1_S4096x1_1_0_0_1_n_n.lhsIdx_val_of_single rfl (ix2 p (0 : Fin 1)) _).trans hk
  · have hk := contrEquiv1_symm_val dot_S4096x4_S4x1_S4096x1_1_0_0_1_n_n 4 rfl rfl k
    refine congrArg w (funext fun a => Fin.ext ?_)
    match a with
    | ⟨0, _⟩ => exact (dot_S4096x4_S4x1_S4096x1_1_0_0_1_n_n.rhsIdx_val_of_single rfl (ix2 p (0 : Fin 1)) _).trans hk
    | ⟨1, _⟩ =>
      show (dot_S4096x4_S4x1_S4096x1_1_0_0_1_n_n.rhsIdx (ix2 p (0 : Fin 1)) ((contrEquiv1 dot_S4096x4_S4x1_S4096x1_1_0_0_1_n_n 4 rfl rfl).symm k) 1).val = (0 : Fin 1).val
      unfold DotDims.rhsIdx
      rw [dif_neg (show ¬(1 : Fin S4x1.rank) ∈ dot_S4096x4_S4x1_S4096x1_1_0_0_1_n_n.rhsBatch by decide),
        dif_pos (show (1 : Fin S4x1.rank) ∈ dot_S4096x4_S4x1_S4096x1_1_0_0_1_n_n.rhsNonContracting by decide)]
      rfl

/-! ## One network of the body, as a function of its loaded blocks -/

/-- The logistic function applied entry by entry, read at an entry. -/
theorem logistic_apply {s : Shape} {φ : FTy} (v : FVec Ideal s φ) (i : s.Idx) :
    logistic v i = Ideal.logistic (v i) := rfl

/-- One network as the body spells it: the three input columns `x`, the weights and the one-row biases as loaded. -/
def netBlock (x : FVec Ideal S4096x3 .f32) (w1 : FVec Ideal S3x4 .f32) (b1 : FVec Ideal S1x4 .f32)
    (w2 : FVec Ideal S4x1 .f32) (b2 : FVec Ideal S1x1 .f32) : FVec Ideal S4096x1 .f32 :=
  logistic (addf (matmul dot_S4096x4_S4x1_S4096x1_1_0_0_1_n_n none
      (maximumf (addf (matmul dot_S4096x3_S3x4_S4096x4_1_0_0_1_n_n none x w1 (constant (F := Ideal) S4096x4 .f32 0x00000000#32))
          (broadcastTo S4096x4 (shapeCast S1x4 b1 shapeCasts_S1x4_S1x4) broadcasts_S1x4_S4096x4))
        (broadcast S4096x4 (Scalar.ofBits (F := Ideal) .f32 0x00000000#32)))
      w2 (constant (F := Ideal) S4096x1 .f32 0x00000000#32))
    (broadcastTo S4096x1 (shapeCast S1x1 b2 shapeCasts_S1x1_S1x1) broadcasts_S1x1_S4096x1))

/-- Entry `(p, 0)` of one network is the network of `NetSpec` on the row whose first three entries are row `p` of `x`. -/
theorem netBlock_apply (x : FVec Ideal S4096x3 .f32) (w1 : FVec Ideal S3x4 .f32) (b1 : FVec Ideal S1x4 .f32)
    (w2 : FVec Ideal S4x1 .f32) (b2 : FVec Ideal S1x1 .f32) (p : Fin 4096) (row : Fin 4 → EReal)
    (hrow : ∀ k : Fin 3, x (ix2 p k) = row (Fin.castLE (by decide) k)) :
    netBlock x w1 b1 w2 b2 (ix2 p (0 : Fin 1))
      = net row ⟨w1, fun j => b1 (ix2 (0 : Fin 1) j), w2, b2 (ix2 (0 : Fin 1) (0 : Fin 1))⟩ := by
  unfold netBlock net preAct
  simp only [shapeCast_self]
  rw [logistic_apply, addf_apply, layer2_apply, broadcastTo_1b_ab_apply]
  refine congrArg Ideal.logistic (congrArg (· + b2 (ix2 (0 : Fin 1) (0 : Fin 1))) (Finset.sum_congr rfl fun j _ => ?_))
  rw [maximumf_apply, addf_apply, layer1_apply, broadcastTo_1b_ab_apply, broadcast_apply]
  unfold Cert.NetSpec.hidden
  simp only [hrow]
  rfl

/-! ## The stored column -/

/-- The block's first three columns, at `(p, k)`. -/
theorem cols_apply (v0 : FVec Ideal S4096x4 .f32) (p : Fin 4096) (k : Fin 3) :
    k0_pay2 v0 (ix2 p k) = v0 (ix2 p (Fin.castLE (by decide) k)) := by
  unfold k0_pay2
  exact slice2_axis1_apply 0 v0 slices_S4096x4_o0_0_S4096x3 p k (Fin.castLE (by decide) k) (Nat.zero_add _).symm

/-- The selector column is the block's second column. -/
theorem sel_apply (v0 : FVec Ideal S4096x4 .f32) (p : Fin 4096) :
    k0_pay3 v0 (ix2 p (0 : Fin 1)) = v0 (ix2 p (1 : Fin 4)) := by
  unfold k0_pay3
  exact slice2_axis1_apply 1 v0 slices_S4096x4_o0_1_S4096x1 p (0 : Fin 1) (1 : Fin 4) rfl

/-- The first network's column is `netBlock` of the three input columns and its parameters. -/
theorem first_eq (v0 : FVec Ideal S4096x4 .f32) (v3 : FVec Ideal S3x4 .f32) (v4 : FVec Ideal S1x4 .f32)
    (v6 : FVec Ideal S4x1 .f32) (v7 : FVec Ideal S1x1 .f32) :
    k0_pay4 v0 v3 v4 v6 v7 = netBlock (k0_pay2 v0) v3 v4 v6 v7 := rfl

/-- So is the second network's. -/
theorem second_eq (v0 : FVec Ideal S4096x4 .f32) (v18 : FVec Ideal S3x4 .f32) (v19 : FVec Ideal S1x4 .f32)
    (v21 : FVec Ideal S4x1 .f32) (v22 : FVec Ideal S1x1 .f32) :
    k0_pay5 v0 v18 v19 v21 v22 = netBlock (k0_pay2 v0) v18 v19 v21 v22 := rfl

/-- The stored column chooses, entry by entry on the selector column, among the first two networks' columns, the
    third network's (computed in place) and zero. -/
theorem stored_eq (v1 : FVec Ideal S4096x3 .f32) (v2 v17 v32 : FVec Ideal S4096x1 .f32) (v33 : FVec Ideal S3x4 .f32)
    (v34 : FVec Ideal S1x4 .f32) (v36 : FVec Ideal S4x1 .f32) (v37 : FVec Ideal S1x1 .f32) :
    k0_pay1 v1 v2 v17 v32 v33 v34 v36 v37
      = select (cmpf .oeq v2 (broadcast S4096x1 (Scalar.ofBits (F := Ideal) .f32 0x00000000#32))) v17
          (select (cmpf .oeq v2 (broadcast S4096x1 (Scalar.ofBits (F := Ideal) .f32 0x3F800000#32))) v32
            (select (cmpf .oeq v2 (broadcast S4096x1 (Scalar.ofBits (F := Ideal) .f32 0x40000000#32)))
              (netBlock v1 v33 v34 v36 v37)
              (broadcast S4096x1 (Scalar.ofBits (F := Ideal) .f32 0x00000000#32)))) := rfl

/-- Entry `(p, 0)` of the stored column is `rowOut` of row `p` of the block, at the three networks' loaded parameters. -/
theorem stored_apply (v0 : FVec Ideal S4096x4 .f32) (v3 v18 v33 : FVec Ideal S3x4 .f32)
    (v4 v19 v34 : FVec Ideal S1x4 .f32) (v6 v21 v36 : FVec Ideal S4x1 .f32) (v7 v22 v37 : FVec Ideal S1x1 .f32)
    (p : Fin 4096) :
    k0_pay1 (F := Ideal) (k0_pay2 v0) (k0_pay3 v0) (k0_pay4 v0 v3 v4 v6 v7) (k0_pay5 v0 v18 v19 v21 v22) v33 v34 v36 v37
        (ix2 p (0 : Fin 1))
      = rowOut (fun k => v0 (ix2 p k))
          ⟨v3, fun j => v4 (ix2 (0 : Fin 1) j), v6, v7 (ix2 (0 : Fin 1) (0 : Fin 1))⟩
          ⟨v18, fun j => v19 (ix2 (0 : Fin 1) j), v21, v22 (ix2 (0 : Fin 1) (0 : Fin 1))⟩
          ⟨v33, fun j => v34 (ix2 (0 : Fin 1) j), v36, v37 (ix2 (0 : Fin 1) (0 : Fin 1))⟩ := by
  have hs := netBlock_apply (k0_pay2 v0) v3 v4 v6 v7 p (fun k => v0 (ix2 p k)) (cols_apply v0 p)
  have hu := netBlock_apply (k0_pay2 v0) v18 v19 v21 v22 p (fun k => v0 (ix2 p k)) (cols_apply v0 p)
  have hd := netBlock_apply (k0_pay2 v0) v33 v34 v36 v37 p (fun k => v0 (ix2 p k)) (cols_apply v0 p)
  rw [stored_eq, first_eq, second_eq, select_apply, select_apply, select_apply, cmpf_apply, cmpf_apply, cmpf_apply,
    hs, hu, hd, sel_apply]
  rfl

end Cert.KernelIdeal.RowValue

end
-- ==== Proof.KernelArray.lean ====
/-
  From the blocks to the whole array.

  The kernel walks the 4194304 rows in 1024 blocks of 4096. At grid point `t` it is handed rows
  `4096·t … 4096·t + 4095` of the input and, unchanged from point to point, the whole of each network's weights and
  biases (the biases as one-row arrays the host made of the bias vectors by a reshape); it writes back rows
  `4096·t … 4096·t + 4095` of the one-column result. Entry `(p, 0)` of what it writes is `NetSpec.rowOut` of row `p` of
  its input block, that is of row `4096·t + p` of the input: block `t` of `NetSpec.resultOf` of the arguments. The 1024
  blocks cover every row (row `r` lies in block `r / 4096`), so the result array ends holding that function.
-/
import proofs.«167903_j72902774882571_2_alg».proof.Proof.Gen.KernelIdeal.Value
import proofs.«167903_j72902774882571_2_alg».proof.Proof.KernelIndex
import proofs.«167903_j72902774882571_2_alg».proof.Proof.KernelRow
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Cert.KernelIdeal.BlockIndex Cert.KernelIdeal.RowValue
open Idealize.ShloMosaic.ValueIdx Idealize.ShloMosaic.StableHlo Cert.NetSpec

variable (m : (ℓ : Loc nD τ sig) → Buf (Elt Ideal) ℓ) (ρ : Dev nD → PrngReg)

theorem hz : (![0, 0] : Fin 2 → Nat) = fun _ => 0 := funext fun a => by fin_cases a <;> rfl

/-! ## What each window's block holds -/

/-- The input block at point `t`: entry `(p, k)` is the input at row `4096·t + p`, column `k`. -/
theorem blk0 (c : Dev nD) (t : Fin cfg0.N) (p : Fin 4096) (k : Fin 4) (r : Fin 4194304) (hr : r.val = t.val * 4096 + p.val) :
    (iblk m c 0 t : FVec Ideal S4096x4 .f32) (ix2 p k)
      = (m ((c : Thread nD τ).loc main_arg0) : S4194304x4.Idx → EReal) (ix2 r k) := by
  show V m c main_arg0 (((cfg0.win 0).blk t).view.emb (ix2 p k)) = _
  rw [V_main_arg0]
  refine congrArg _ (funext fun a => Fin.ext ?_)
  have h0 := (idx_in t).1
  have h1 := (idx_in t).2
  match a with
  | ⟨0, _⟩ => show win0_0.index t (0 : Fin 2) * 4096 + 1 * p.val = r.val; omega
  | ⟨1, _⟩ => show win0_0.index t (1 : Fin 2) * 4 + 1 * k.val = k.val; omega

/-- Window 1 holds the first network's `[3, 4]` weights, whole. -/
theorem blk1 (c : Dev nD) (t : Fin cfg0.N) :
    (iblk m c 1 t : FVec Ideal S3x4 .f32) = (m ((c : Thread nD τ).loc main_arg1) : S3x4.Idx → EReal) := by
  funext y
  show V m c main_arg1 (((cfg0.win 1).blk t).view.emb y) = _
  rw [V_main_arg1]
  refine congrArg _ (funext fun a => Fin.ext ?_)
  have h0 : win0_1.index t (0 : Fin 2) = 0 := idx_param 1 t (by decide) (by decide) (0 : Fin 2)
  have h1 : win0_1.index t (1 : Fin 2) = 0 := idx_param 1 t (by decide) (by decide) (1 : Fin 2)
  match a with
  | ⟨0, _⟩ => show win0_1.index t (0 : Fin 2) * 3 + 1 * (y 0).val = (y 0).val; omega
  | ⟨1, _⟩ => show win0_1.index t (1 : Fin 2) * 4 + 1 * (y 1).val = (y 1).val; omega

/-- Window 2 holds the first network's four biases as one row: the host's reshape of the bias vector. -/
theorem blk2 (c : Dev nD) (t : Fin cfg0.N) (j : Fin 4) :
    (iblk m c 2 t : FVec Ideal S1x4 .f32) (ix2 (0 : Fin 1) j)
      = (m ((c : Thread nD τ).loc main_arg2) : S4.Idx → EReal) (ix1 j) := by
  show V m c main_v0 (((cfg0.win 2).blk t).view.emb (ix2 (0 : Fin 1) j)) = _
  have e : (V m c main_v0 : S1x4.Idx → EReal)
      = shapeCast S1x4 (m ((c : Thread nD τ).loc main_arg2) : S4.Idx → EReal) shapeCasts_S4_S1x4 := by
    dsimp only [Gen.V, Gen.hostOps0]; after_results; rfl
  have h0 : win0_2.index t (0 : Fin 2) = 0 := idx_param 2 t (by decide) (by decide) (0 : Fin 2)
  have h1 : win0_2.index t (1 : Fin 2) = 0 := idx_param 2 t (by decide) (by decide) (1 : Fin 2)
  have hi : ((cfg0.win 2).blk t).view.emb (ix2 (0 : Fin 1) j) = ix2 (0 : Fin 1) j :=
    funext fun a => Fin.ext (by
      match a with
      | ⟨0, _⟩ => show win0_2.index t (0 : Fin 2) * 1 + 1 * 0 = 0; omega
      | ⟨1, _⟩ => show win0_2.index t (1 : Fin 2) * 4 + 1 * j.val = j.val; omega)
  rw [e, hi]
  exact shapeCast_a_1a_apply _ _ (0 : Fin 1) j

/-- Window 3 holds the first network's `[4, 1]` weights, whole. -/
theorem blk3 (c : Dev nD) (t : Fin cfg0.N) :
    (iblk m c 3 t : FVec Ideal S4x1 .f32) = (m ((c : Thread nD τ).loc main_arg3) : S4x1.Idx → EReal) := by
  funext y
  show V m c main_arg3 (((cfg0.win 3).blk t).view.emb y) = _
  rw [V_main_arg3]
  refine congrArg _ (funext fun a => Fin.ext ?_)
  have h0 : win0_3.index t (0 : Fin 2) = 0 := idx_param 3 t (by decide) (by decide) (0 : Fin 2)
  have h1 : win0_3.index t (1 : Fin 2) = 0 := idx_param 3 t (by decide) (by decide) (1 : Fin 2)
  match a with
  | ⟨0, _⟩ => show win0_3.index t (0 : Fin 2) * 4 + 1 * (y 0).val = (y 0).val; omega
  | ⟨1, _⟩ => show win0_3.index t (1 : Fin 2) * 1 + 1 * (y 1).val = (y 1).val; omega

/-- Window 4 holds the first network's one bias as a `[1, 1]` array: the host's reshape of the bias vector. -/
theorem blk4 (c : Dev nD) (t : Fin cfg0.N) :
    (iblk m c 4 t : FVec Ideal S1x1 .f32) (ix2 (0 : Fin 1) (0 : Fin 1))
      = (m ((c : Thread nD τ).loc main_arg4) : S1.Idx → EReal) (ix1 (0 : Fin 1)) := by
  show V m c main_v3 (((cfg0.win 4).blk t).view.emb (ix2 (0 : Fin 1) (0 : Fin 1))) = _
  have e : (V m c main_v3 : S1x1.Idx → EReal)
      = shapeCast S1x1 (m ((c : Thread nD τ).loc main_arg4) : S1.Idx → EReal) shapeCasts_S1_S1x1 := by
    dsimp only [Gen.V, Gen.hostOps0]; after_results; rfl
  have h0 : win0_4.index t (0 : Fin 2) = 0 := idx_param 4 t (by decide) (by decide) (0 : Fin 2)
  have h1 : win0_4.index t (1 : Fin 2) = 0 := idx_param 4 t (by decide) (by decide) (1 : Fin 2)
  have hi : ((cfg0.win 4).blk t).view.emb (ix2 (0 : Fin 1) (0 : Fin 1)) = ix2 (0 : Fin 1) (0 : Fin 1) :=
    funext fun a => Fin.ext (by
      match a with
      | ⟨0, _⟩ => show win0_4.index t (0 : Fin 2) * 1 + 1 * 0 = 0; omega
      | ⟨1, _⟩ => show win0_4.index t (1 : Fin 2) * 1 + 1 * 0 = 0; omega)
  rw [e, hi]
  exact shapeCast_a_1a_apply _ _ (0 : Fin 1) (0 : Fin 1)

/-- Window 5 holds the second network's `[3, 4]` weights, whole. -/
theorem blk5 (c : Dev nD) (t : Fin cfg0.N) :
    (iblk m c 5 t : FVec Ideal S3x4 .f32) = (m ((c : Thread nD τ).loc main_arg5) : S3x4.Idx → EReal) := by
  funext y
  show V m c main_arg5 (((cfg0.win 5).blk t).view.emb y) = _
  rw [V_main_arg5]
  refine congrArg _ (funext fun a => Fin.ext ?_)
  have h0 : win0_5.index t (0 : Fin 2) = 0 := idx_param 5 t (by decide) (by decide) (0 : Fin 2)
  have h1 : win0_5.index t (1 : Fin 2) = 0 := idx_param 5 t (by decide) (by decide) (1 : Fin 2)
  match a with
  | ⟨0, _⟩ => show win0_5.index t (0 : Fin 2) * 3 + 1 * (y 0).val = (y 0).val; omega
  | ⟨1, _⟩ => show win0_5.index t (1 : Fin 2) * 4 + 1 * (y 1).val = (y 1).val; omega

/-- Window 6 holds the second network's four biases as one row. -/
theorem blk6 (c : Dev nD) (t : Fin cfg0.N) (j : Fin 4) :
    (iblk m c 6 t : FVec Ideal S1x4 .f32) (ix2 (0 : Fin 1) j)
      = (m ((c : Thread nD τ).loc main_arg6) : S4.Idx → EReal) (ix1 j) := by
  show V m c main_v1 (((cfg0.win 6).blk t).view.emb (ix2 (0 : Fin 1) j)) = _
  have e : (V m c main_v1 : S1x4.Idx → EReal)
      = shapeCast S1x4 (m ((c : Thread nD τ).loc main_arg6) : S4.Idx → EReal) shapeCasts_S4_S1x4 := by
    dsimp only [Gen.V, Gen.hostOps0]; after_results; rfl
  have h0 : win0_6.index t (0 : Fin 2) = 0 := idx_param 6 t (by decide) (by decide) (0 : Fin 2)
  have h1 : win0_6.index t (1 : Fin 2) = 0 := idx_param 6 t (by decide) (by decide) (1 : Fin 2)
  have hi : ((cfg0.win 6).blk t).view.emb (ix2 (0 : Fin 1) j) = ix2 (0 : Fin 1) j :=
    funext fun a => Fin.ext (by
      match a with
      | ⟨0, _⟩ => show win0_6.index t (0 : Fin 2) * 1 + 1 * 0 = 0; omega
      | ⟨1, _⟩ => show win0_6.index t (1 : Fin 2) * 4 + 1 * j.val = j.val; omega)
  rw [e, hi]
  exact shapeCast_a_1a_apply _ _ (0 : Fin 1) j

/-- Window 7 holds the second network's `[4, 1]` weights, whole. -/
theorem blk7 (c : Dev nD) (t : Fin cfg0.N) :
    (iblk m c 7 t : FVec Ideal S4x1 .f32) = (m ((c : Thread nD τ).loc main_arg7) : S4x1.Idx → EReal) := by
  funext y
  show V m c main_arg7 (((cfg0.win 7).blk t).view.emb y) = _
  rw [V_main_arg7]
  refine congrArg _ (funext fun a => Fin.ext ?_)
  have h0 : win0_7.index t (0 : Fin 2) = 0 := idx_param 7 t (by decide) (by decide) (0 : Fin 2)
  have h1 : win0_7.index t (1 : Fin 2) = 0 := idx_param 7 t (by decide) (by decide) (1 : Fin 2)
  match a with
  | ⟨0, _⟩ => show win0_7.index t (0 : Fin 2) * 4 + 1 * (y 0).val = (y 0).val; omega
  | ⟨1, _⟩ => show win0_7.index t (1 : Fin 2) * 1 + 1 * (y 1).val = (y 1).val; omega

/-- Window 8 holds the second network's one bias as a `[1, 1]` array. -/
theorem blk8 (c : Dev nD) (t : Fin cfg0.N) :
    (iblk m c 8 t : FVec Ideal S1x1 .f32) (ix2 (0 : Fin 1) (0 : Fin 1))
      = (m ((c : Thread nD τ).loc main_arg8) : S1.Idx → EReal) (ix1 (0 : Fin 1)) := by
  show V m c main_v4 (((cfg0.win 8).blk t).view.emb (ix2 (0 : Fin 1) (0 : Fin 1))) = _
  have e : (V m c main_v4 : S1x1.Idx → EReal)
      = shapeCast S1x1 (m ((c : Thread nD τ).loc main_arg8) : S1.Idx → EReal) shapeCasts_S1_S1x1 := by
    dsimp only [Gen.V, Gen.hostOps0]; after_results; rfl
  have h0 : win0_8.index t (0 : Fin 2) = 0 := idx_param 8 t (by decide) (by decide) (0 : Fin 2)
  have h1 : win0_8.index t (1 : Fin 2) = 0 := idx_param 8 t (by decide) (by decide) (1 : Fin 2)
  have hi : ((cfg0.win 8).blk t).view.emb (ix2 (0 : Fin 1) (0 : Fin 1)) = ix2 (0 : Fin 1) (0 : Fin 1) :=
    funext fun a => Fin.ext (by
      match a with
      | ⟨0, _⟩ => show win0_8.index t (0 : Fin 2) * 1 + 1 * 0 = 0; omega
      | ⟨1, _⟩ => show win0_8.index t (1 : Fin 2) * 1 + 1 * 0 = 0; omega)
  rw [e, hi]
  exact shapeCast_a_1a_apply _ _ (0 : Fin 1) (0 : Fin 1)

/-- Window 9 holds the third network's `[3, 4]` weights, whole. -/
theorem blk9 (c : Dev nD) (t : Fin cfg0.N) :
    (iblk m c 9 t : FVec Ideal S3x4 .f32) = (m ((c : Thread nD τ).loc main_arg9) : S3x4.Idx → EReal) := by
  funext y
  show V m c main_arg9 (((cfg0.win 9).blk t).view.emb y) = _
  rw [V_main_arg9]
  refine congrArg _ (funext fun a => Fin.ext ?_)
  have h0 : win0_9.index t (0 : Fin 2) = 0 := idx_param 9 t (by decide) (by decide) (0 : Fin 2)
  have h1 : win0_9.index t (1 : Fin 2) = 0 := idx_param 9 t (by decide) (by decide) (1 : Fin 2)
  match a with
  | ⟨0, _⟩ => show win0_9.index t (0 : Fin 2) * 3 + 1 * (y 0).val = (y 0).val; omega
  | ⟨1, _⟩ => show win0_9.index t (1 : Fin 2) * 4 + 1 * (y 1).val = (y 1).val; omega

/-- Window 10 holds the third network's four biases as one row. -/
theorem blk10 (c : Dev nD) (t : Fin cfg0.N) (j : Fin 4) :
    (iblk m c 10 t : FVec Ideal S1x4 .f32) (ix2 (0 : Fin 1) j)
      = (m ((c : Thread nD τ).loc main_arg10) : S4.Idx → EReal) (ix1 j) := by
  show V m c main_v2 (((cfg0.win 10).blk t).view.emb (ix2 (0 : Fin 1) j)) = _
  have e : (V m c main_v2 : S1x4.Idx → EReal)
      = shapeCast S1x4 (m ((c : Thread nD τ).loc main_arg10) : S4.Idx → EReal) shapeCasts_S4_S1x4 := by
    dsimp only [Gen.V, Gen.hostOps0]; after_results; rfl
  have h0 : win0_10.index t (0 : Fin 2) = 0 := idx_param 10 t (by decide) (by decide) (0 : Fin 2)
  have h1 : win0_10.index t (1 : Fin 2) = 0 := idx_param 10 t (by decide) (by decide) (1 : Fin 2)
  have hi : ((cfg0.win 10).blk t).view.emb (ix2 (0 : Fin 1) j) = ix2 (0 : Fin 1) j :=
    funext fun a => Fin.ext (by
      match a with
      | ⟨0, _⟩ => show win0_10.index t (0 : Fin 2) * 1 + 1 * 0 = 0; omega
      | ⟨1, _⟩ => show win0_10.index t (1 : Fin 2) * 4 + 1 * j.val = j.val; omega)
  rw [e, hi]
  exact shapeCast_a_1a_apply _ _ (0 : Fin 1) j

/-- Window 11 holds the third network's `[4, 1]` weights, whole. -/
theorem blk11 (c : Dev nD) (t : Fin cfg0.N) :
    (iblk m c 11 t : FVec Ideal S4x1 .f32) = (m ((c : Thread nD τ).loc main_arg11) : S4x1.Idx → EReal) := by
  funext y
  show V m c main_arg11 (((cfg0.win 11).blk t).view.emb y) = _
  rw [V_main_arg11]
  refine congrArg _ (funext fun a => Fin.ext ?_)
  have h0 : win0_11.index t (0 : Fin 2) = 0 := idx_param 11 t (by decide) (by decide) (0 : Fin 2)
  have h1 : win0_11.index t (1 : Fin 2) = 0 := idx_param 11 t (by decide) (by decide) (1 : Fin 2)
  match a with
  | ⟨0, _⟩ => show win0_11.index t (0 : Fin 2) * 4 + 1 * (y 0).val = (y 0).val; omega
  | ⟨1, _⟩ => show win0_11.index t (1 : Fin 2) * 1 + 1 * (y 1).val = (y 1).val; omega

/-- Window 12 holds the third network's one bias as a `[1, 1]` array. -/
theorem blk12 (c : Dev nD) (t : Fin cfg0.N) :
    (iblk m c 12 t : FVec Ideal S1x1 .f32) (ix2 (0 : Fin 1) (0 : Fin 1))
      = (m ((c : Thread nD τ).loc main_arg12) : S1.Idx → EReal) (ix1 (0 : Fin 1)) := by
  show V m c main_v5 (((cfg0.win 12).blk t).view.emb (ix2 (0 : Fin 1) (0 : Fin 1))) = _
  have e : (V m c main_v5 : S1x1.Idx → EReal)
      = shapeCast S1x1 (m ((c : Thread nD τ).loc main_arg12) : S1.Idx → EReal) shapeCasts_S1_S1x1 := by
    dsimp only [Gen.V, Gen.hostOps0]; after_results; rfl
  have h0 : win0_12.index t (0 : Fin 2) = 0 := idx_param 12 t (by decide) (by decide) (0 : Fin 2)
  have h1 : win0_12.index t (1 : Fin 2) = 0 := idx_param 12 t (by decide) (by decide) (1 : Fin 2)
  have hi : ((cfg0.win 12).blk t).view.emb (ix2 (0 : Fin 1) (0 : Fin 1)) = ix2 (0 : Fin 1) (0 : Fin 1) :=
    funext fun a => Fin.ext (by
      match a with
      | ⟨0, _⟩ => show win0_12.index t (0 : Fin 2) * 1 + 1 * 0 = 0; omega
      | ⟨1, _⟩ => show win0_12.index t (1 : Fin 2) * 1 + 1 * 0 = 0; omega)
  rw [e, hi]
  exact shapeCast_a_1a_apply _ _ (0 : Fin 1) (0 : Fin 1)

/-! ## What a point writes back, the cover, and the array after the run -/

/-- The result array as a function of the launch memory on core `c`: `NetSpec.resultOf` of the thirteen arguments. -/
def G (c : Dev nD) : S4194304x1.Idx → EReal :=
  resultOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-- What point `t` writes back is block `t` of `G`: entry `(p, 0)` of the stored column is `rowOut` of row `p` of the
    input block, which is row `4096·t + p` of the input, at the parameters the twelve parameter windows hold. -/
theorem flushed_eq (c : Dev nD) (t : Fin cfg0.N) :
    (dats m 0 c).flushed 13 t = ((cfg0.win 13).blk t).view.read (Elt Ideal) (G m c) := by
  rw [flushed13]
  unfold out0_13
  rw [View.canon_unit_zero hz]
  simp only [View.ld_unit_zero (S := S4096x4) hz, View.ld_unit_zero (S := S3x4) hz, View.ld_unit_zero (S := S1x4) hz,
    View.ld_unit_zero (S := S4x1) hz, View.ld_unit_zero (S := S1x1) hz]
  funext y
  obtain ⟨p, q, rfl⟩ : ∃ (p : Fin 4096) (q : Fin 1), y = ix2 p q := ⟨y 0, y 1, eq_ix2 y⟩
  obtain rfl : q = 0 := Subsingleton.elim _ _
  have hN : cfg0.N = 1024 := N_0
  have hr : t.val * 4096 + p.val < 4194304 := by have := t.isLt; omega
  have ho := (idx_out t).1
  have hv : ((((cfg0.win 13).blk t).view.emb (ix2 p (0 : Fin 1))) 0).val = t.val * 4096 + p.val := by
    show win0_13.index t (0 : Fin 2) * 4096 + 1 * p.val = _
    omega
  show k0_pay1 (F := Ideal) (k0_pay2 (iblk m c 0 t)) (k0_pay3 (iblk m c 0 t))
      (k0_pay4 (iblk m c 0 t) (iblk m c 1 t) (iblk m c 2 t) (iblk m c 3 t) (iblk m c 4 t))
      (k0_pay5 (iblk m c 0 t) (iblk m c 5 t) (iblk m c 6 t) (iblk m c 7 t) (iblk m c 8 t))
      (iblk m c 9 t) (iblk m c 10 t) (iblk m c 11 t) (iblk m c 12 t) (ix2 p (0 : Fin 1))
    = G m c (((cfg0.win 13).blk t).view.emb (ix2 p (0 : Fin 1)))
  refine (stored_apply (iblk m c 0 t) (iblk m c 1 t) (iblk m c 5 t) (iblk m c 9 t) (iblk m c 2 t) (iblk m c 6 t)
    (iblk m c 10 t) (iblk m c 3 t) (iblk m c 7 t) (iblk m c 11 t) (iblk m c 4 t) (iblk m c 8 t) (iblk m c 12 t) p).trans ?_
  simp only [blk0 m c t p _ ⟨t.val * 4096 + p.val, hr⟩ rfl, blk1 m c t, blk2 m c t, blk3 m c t, blk4 m c t, blk5 m c t,
    blk6 m c t, blk7 m c t, blk8 m c t, blk9 m c t, blk10 m c t, blk11 m c t, blk12 m c t]
  unfold G resultOf result
  have hf : (⟨t.val * 4096 + p.val, hr⟩ : Fin 4194304)
      = ⟨((((cfg0.win 13).blk t).view.emb (ix2 p (0 : Fin 1))) 0).val, ((((cfg0.win 13).blk t).view.emb (ix2 p (0 : Fin 1))) 0).isLt⟩ :=
    Fin.ext hv.symm
  rw [hf]

/-- An index of the result array is in point `t`'s block iff each coordinate is in the block's range on its axis. -/
theorem mem_blk (t : Fin cfg0.N) (i : S4194304x1.Idx) :
    i ∈ ((cfg0.win 13).blk t).view.set ↔ ∀ a : Fin 2, win0_13.index t a * S4096x1.size a ≤ (i a).val
      ∧ (i a).val < win0_13.index t a * S4096x1.size a + S4096x1.size a := by
  show i ∈ ((View.whole main_v6).slice (win0_13.rect t)).set ↔ _
  rw [View.set_slice_whole, Rect.mem_set_unit]
  exact Iff.rfl

/-- Every row is written: row `r` lies in the block of point `r / 4096`, and every point writes back. -/
theorem cover (i : S4194304x1.Idx) :
    ∃ t : Fin cfg0.N, (cfg0.win 13).flush t = true ∧ i ∈ ((cfg0.win 13).blk t).view.set := by
  have hN : cfg0.N = 1024 := N_0
  have h0 : (i 0).val < 4194304 := (i 0).isLt
  have h1 : (i 1).val < 1 := (i 1).isLt
  refine ⟨⟨(i 0).val / 4096, by rw [hN]; omega⟩, flush0_13 _, ?_⟩
  rw [mem_blk]
  intro a
  have e0 := (idx_out ⟨(i 0).val / 4096, by rw [hN]; omega⟩).1
  have e1 := (idx_out ⟨(i 0).val / 4096, by rw [hN]; omega⟩).2
  match a with
  | ⟨0, _⟩ =>
    show win0_13.index ⟨(i 0).val / 4096, _⟩ (0 : Fin 2) * 4096 ≤ (i 0).val
      ∧ (i 0).val < win0_13.index ⟨(i 0).val / 4096, _⟩ (0 : Fin 2) * 4096 + 4096
    rw [e0]
    show (i 0).val / 4096 * 4096 ≤ (i 0).val ∧ (i 0).val < (i 0).val / 4096 * 4096 + 4096
    omega
  | ⟨1, _⟩ =>
    show win0_13.index ⟨(i 0).val / 4096, _⟩ (1 : Fin 2) * 1 ≤ (i 1).val
      ∧ (i 1).val < win0_13.index ⟨(i 0).val / 4096, _⟩ (1 : Fin 2) * 1 + 1
    rw [e1]
    omega

/-- So the result array ends holding `G`. -/
theorem final (c : Dev nD) : (dats m 0 c).arrAt 13 cfg0.N = G m c :=
  (dats m 0 c).arrAt_eq_of_cover 13 (G m c) (fun t _ => flushed_eq m c t) cover

/-- The kernel's run, read: the result array at `G`, the thirteen arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Cert.KernelIdeal.Value.run_blocks m ρ)

end Cert.KernelIdeal.ArrayValue

end
-- ==== Proof.RefRow.lean ====
/-
  The reference's result, read one row at a time.

  Each of the reference's three networks is a chain of whole-array operations: the product of the input's first three
  columns with the `[3, 4]` weights, the four biases broadcast over the rows and added, the positive part, the product
  with the `[4, 1]` weights, the one bias added, and the logistic function spelt as the quotient `1 / (1 + e^(-y))`.
  Entry `(r, 0)` of such a chain depends on row `r` of the input alone; read there, it is the network of `NetSpec`
  on that row (the quotient is the logistic function by `host_quotient_eq_logistic`). The three compare-and-choose
  steps read the same row's second entry. So the reference's result is `NetSpec.resultOf` of its arguments.
-/
import proofs.«167903_j72902774882571_2_alg».proof.Proof.Gen.ReferenceIdeal.Read
import proofs.«167903_j72902774882571_2_alg».proof.Proof.NetSpec
import Idealize.ShloMosaic.Lib.ValueIdx

noncomputable section

open scoped BigOperators

namespace Cert.ReferenceIdeal.RowValue

open Cert.ReferenceIdeal Cert.ReferenceIdeal.Read Idealize.ShloMosaic Idealize.ShloMosaic.ValueIdx Cert.NetSpec

/-! ## The first network (the buffers `%0 … %16`) -/

/-- Hidden unit `j` of the first network at row `r`. -/
theorem hidden_s (x0 : S4194304x4.Idx → EReal) (x1 : S3x4.Idx → EReal) (x2 : S4.Idx → EReal)
    (W2 : S4x1.Idx → EReal) (b2 : EReal) (r : Fin 4194304) (j : Fin 4) :
    val_main_v6 (F := Ideal) x0 x1 x2 (ix2 r j)
      = hidden (fun k => x0 (ix2 r k)) ⟨x1, fun j => x2 (ix1 j), W2, b2⟩ j := by
  rw [val_main_v6_apply, val_main_v5_apply, val_main_v2_apply, val_main_v4_apply, val_main_v3_apply,
    val_main_call0_v0_apply, val_main_call0_cst_apply]
  have e1 : ∀ k : Fin 3, val_main_v0 (F := Ideal) x0 (lidx_main_v2 (ix2 r j) k) = x0 (ix2 r (Fin.castLE (by decide) k)) :=
    fun k => by
      rw [val_main_v0_apply]
      exact congrArg x0 (funext fun a => Fin.ext (by match a with | ⟨0, _⟩ => rfl | ⟨1, _⟩ => rfl))
  have e2 : ∀ k : Fin 3, ridx_main_v2 (ix2 r j) k = ix2 k j :=
    fun k => funext fun a => Fin.ext (by match a with | ⟨0, _⟩ => rfl | ⟨1, _⟩ => rfl)
  have e3 : idx_main_v3 (idx_main_v4 (ix2 r j)) = ix1 j :=
    funext fun a => Fin.ext (by match a with | ⟨0, _⟩ => rfl)
  simp only [e1, e2, e3]
  rfl

/-- The argument of the first network's logistic function at row `r`. -/
theorem preAct_s (x0 : S4194304x4.Idx → EReal) (x1 : S3x4.Idx → EReal) (x2 : S4.Idx → EReal)
    (x3 : S4x1.Idx → EReal) (x4 : S1.Idx → EReal) (r : Fin 4194304) :
    val_main_v10 (F := Ideal) x0 x1 x2 x3 x4 (ix2 r (0 : Fin 1))
      = preAct (fun k => x0 (ix2 r k)) ⟨x1, fun j => x2 (ix1 j), x3, x4 (ix1 (0 : Fin 1))⟩ := by
  rw [val_main_v10_apply, val_main_v7_apply, val_main_v9_apply, val_main_v8_apply]
  have e1 : ∀ k : Fin 4, lidx_main_v7 (ix2 r (0 : Fin 1)) k = ix2 r k :=
    fun k => funext fun a => Fin.ext (by match a with | ⟨0, _⟩ => rfl | ⟨1, _⟩ => rfl)
  have e2 : ∀ k : Fin 4, ridx_main_v7 (ix2 r (0 : Fin 1)) k = ix2 k (0 : Fin 1) :=
    fun k => funext fun a => Fin.ext (by match a with | ⟨0, _⟩ => rfl | ⟨1, _⟩ => rfl)
  have e3 : idx_main_v8 (idx_main_v9 (ix2 r (0 : Fin 1))) = ix1 (0 : Fin 1) :=
    funext fun a => Fin.ext (by match a with | ⟨0, _⟩ => rfl)
  simp only [e1, e2, e3, hidden_s x0 x1 x2 x3 (x4 (ix1 (0 : Fin 1)))]
  rfl

/-- The first network at row `r`. -/
theorem net_s (x0 : S4194304x4.Idx → EReal) (x1 : S3x4.Idx → EReal) (x2 : S4.Idx → EReal)
    (x3 : S4x1.Idx → EReal) (x4 : S1.Idx → EReal) (r : Fin 4194304) :
    val_main_v16 (F := Ideal) x0 x1 x2 x3 x4 (ix2 r (0 : Fin 1))
      = net (fun k => x0 (ix2 r k)) ⟨x1, fun j => x2 (ix1 j), x3, x4 (ix1 (0 : Fin 1))⟩ := by
  rw [val_main_v16_apply, val_main_v15_apply, val_main_cst_0_apply, val_main_v14_apply, val_main_v13_apply,
    val_main_cst_apply, val_main_v12_apply, val_main_v11_apply, preAct_s]
  exact host_quotient_eq_logistic _

/-! ## The second and third networks

  The reference spells the second network (the buffers `%17 … %31`) and the third (`%32 … %46`) with the same
  operations as the first, on their own parameters: each stage unfolds to the first network's stage at those
  parameters. -/

/-- The second network at row `r`. -/
theorem net_u (x0 : S4194304x4.Idx → EReal) (x5 : S3x4.Idx → EReal) (x6 : S4.Idx → EReal)
    (x7 : S4x1.Idx → EReal) (x8 : S1.Idx → EReal) (r : Fin 4194304) :
    val_main_v31 (F := Ideal) x0 x5 x6 x7 x8 (ix2 r (0 : Fin 1))
      = net (fun k => x0 (ix2 r k)) ⟨x5, fun j => x6 (ix1 j), x7, x8 (ix1 (0 : Fin 1))⟩ :=
  net_s x0 x5 x6 x7 x8 r

/-- The third network at row `r`. -/
theorem net_d (x0 : S4194304x4.Idx → EReal) (x9 : S3x4.Idx → EReal) (x10 : S4.Idx → EReal)
    (x11 : S4x1.Idx → EReal) (x12 : S1.Idx → EReal) (r : Fin 4194304) :
    val_main_v46 (F := Ideal) x0 x9 x10 x11 x12 (ix2 r (0 : Fin 1))
      = net (fun k => x0 (ix2 r k)) ⟨x9, fun j => x10 (ix1 j), x11, x12 (ix1 (0 : Fin 1))⟩ :=
  net_s x0 x9 x10 x11 x12 r

/-! ## The choice, and the whole result -/

/-- The reference's result is `NetSpec.resultOf` of its thirteen arguments. -/
theorem result_eq (x0 : S4194304x4.Idx → EReal) (x1 : S3x4.Idx → EReal) (x2 : S4.Idx → EReal) (x3 : S4x1.Idx → EReal)
    (x4 : S1.Idx → EReal) (x5 : S3x4.Idx → EReal) (x6 : S4.Idx → EReal) (x7 : S4x1.Idx → EReal) (x8 : S1.Idx → EReal)
    (x9 : S3x4.Idx → EReal) (x10 : S4.Idx → EReal) (x11 : S4x1.Idx → EReal) (x12 : S1.Idx → EReal) :
    val_main_v56 (F := Ideal) x0 x1 x2 x3 x4 x5 x6 x7 x8 x9 x10 x11 x12
      = resultOf x0 x1 x2 x3 x4 x5 x6 x7 x8 x9 x10 x11 x12 := by
  unfold resultOf
  funext i
  obtain ⟨r, q, rfl⟩ : ∃ (r : Fin 4194304) (q : Fin 1), i = ix2 r q := ⟨i 0, i 1, eq_ix2 i⟩
  obtain rfl : q = 0 := Subsingleton.elim _ _
  rw [val_main_v56_apply, val_main_v55_apply, val_main_v54_apply, val_main_v49_apply, val_main_v51_apply,
    val_main_v53_apply, val_main_v1_apply, val_main_v48_apply, val_main_cst_6_apply, val_main_v50_apply,
    val_main_cst_7_apply, val_main_v52_apply, val_main_cst_8_apply, val_main_v47_apply, val_main_cst_5_apply,
    net_s, net_u, net_d]
  have e : idx_main_v1 (ix2 r (0 : Fin 1)) = ix2 r (1 : Fin 4) :=
    funext fun a => Fin.ext (by match a with | ⟨0, _⟩ => rfl | ⟨1, _⟩ => rfl)
  rw [e]
  rfl

end Cert.ReferenceIdeal.RowValue

end
-- ==== Proof.lean ====
/-
  Three small networks chosen row by row: the tiled kernel and the whole-array reference compute one function.

  Every row `x` of the `[4194304, 4]` input goes, by its first three entries, through three networks of the same
  form (three inputs, four hidden units with the positive part, one output through the logistic function), and the
  row's second entry chooses among the three outputs (the first at `0`, the second at `1`, the third at `2`, zero
  otherwise). The kernel does this on blocks of 4096 rows, with each product a matrix product accumulated into
  zeros and the logistic function as one operation; the reference does it on whole arrays, with `dot_general` and the
  logistic function spelt `1 / (1 + e^(-y))`. Over the extended reals both are the function `NetSpec.resultOf` of the
  thirteen arguments, index by index: a product into zeros is the plain sum over the contracted index on both sides,
  a different tiling of the rows changes nothing, and the logistic function is that quotient on every extended real.
  No step uses that the inputs are finite. The idealization rewrote no operation of the kernel, so nothing is owed
  for it; the three programs' termination and unchanged arguments are the generated frames.
-/
import proofs.«167903_j72902774882571_2_alg».proof.Defs
import proofs.«167903_j72902774882571_2_alg».proof.Proof.Gen.Kernel
import proofs.«167903_j72902774882571_2_alg».proof.Proof.Gen.Kernel.Frame
import proofs.«167903_j72902774882571_2_alg».proof.Proof.Gen.KernelIdeal
import proofs.«167903_j72902774882571_2_alg».proof.Proof.Gen.KernelIdeal.Frame
import proofs.«167903_j72902774882571_2_alg».proof.Proof.Gen.KernelIdeal.Value
import proofs.«167903_j72902774882571_2_alg».proof.Proof.Gen.ReferenceIdeal
import proofs.«167903_j72902774882571_2_alg».proof.Proof.Gen.ReferenceIdeal.Run
import proofs.«167903_j72902774882571_2_alg».proof.Proof.Gen.ReferenceIdeal.Read
import proofs.«167903_j72902774882571_2_alg».proof.Proof.Gen.Pre_finite_inputs
import proofs.«167903_j72902774882571_2_alg».proof.Proof.KernelArray
import proofs.«167903_j72902774882571_2_alg».proof.Proof.RefRow
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on the thirteen arguments, the kernel's result array and the reference's both end at
    `NetSpec.resultOf` of those arguments. -/
theorem algebraic : Cert.algebraic_KernelIdeal_ReferenceIdeal := by
  intro m ρ m' ρ' _ hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [h0, h1, h2, h3, h4, h5, h6, h7, h8, h9, h10, h11, h12]
  exact (Cert.ReferenceIdeal.Read.val_main_v56_eq (F := Ideal) _ _ _ _ _ _ _ _ _ _ _ _ _).trans
    (Cert.ReferenceIdeal.RowValue.result_eq _ _ _ _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
